-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S1600000 : Shape := ⟨1, ![1600000]⟩
abbrev S2000000 : Shape := ⟨1, ![2000000]⟩
abbrev S2x64 : Shape := ⟨2, ![2, 64]⟩
abbrev S_ : Shape := ⟨0, ![]⟩

class Facts : Prop where
  bcast_S_S2x64 : S_.BroadcastsInDim S2x64 (![] : Fin 0 → Fin S2x64.rank)
  reducesTo_S2x64_S_d0_1 : S2x64.ReducesTo [0, 1] S_
  h_S_ : 0 < S_.numel

variable [Facts]

def fn {F : FTy → Type} [FloatOps F] (main_arg0 : IVec S50000 32) (main_arg1 : IVec S1600000 32) (main_arg2 : IVec S1600000 32) (main_arg3 : IVec S2000000 32) (main_arg4 : IVec S2000000 32) (main_arg5 : FVec F S2x64 .f32) (main_arg6 : FVec F S2x64 .f32) (main_arg7 : FVec F S2x64 .f32) : IVec S_ 1 :=
  let main_v0 : FVec F S2x64 .f32 := Host.absf main_arg5
  let main_cst : FVec F S_ .f32 := constant S_ .f32 0x7F800000#32
  let main_v1 : FVec F S2x64 .f32 := broadcastInDim S2x64 ![] bcast_S_S2x64 main_cst
  let main_v2 : IVec S2x64 1 := cmpf .olt main_v0 main_v1
  let main_c : IVec S_ 1 := constantI S_ 1 1#1
  let main_v3 : IVec S_ 1 := (fun x v => Host.reduce IntOp.andi x v reducesTo_S2x64_S_d0_1 h_S_) main_v2 main_c
  let main_v4 : FVec F S2x64 .f32 := Host.absf main_arg6
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S2x64 .f32 := Host.absf main_arg7
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  main_v13
-- ==== Kernel.lean ====
abbrev S50000 : Shape := ⟨1, ![50000]⟩
abbrev S1600000 : Shape := ⟨1, ![1600000]⟩
abbrev S2000000 : Shape := ⟨1, ![2000000]⟩
abbrev S2x64 : Shape := ⟨2, ![2, 64]⟩
abbrev S_ : Shape := ⟨0, ![]⟩
abbrev S1600000x1 : Shape := ⟨2, ![1600000, 1]⟩
abbrev S2000000x1 : Shape := ⟨2, ![2000000, 1]⟩
abbrev S2015232 : Shape := ⟨1, ![2015232]⟩
abbrev S2015232x64 : Shape := ⟨2, ![2015232, 64]⟩
abbrev S16384 : Shape := ⟨1, ![16384]⟩
abbrev S16384x64 : Shape := ⟨2, ![16384, 64]⟩
abbrev S16384x1 : Shape := ⟨2, ![16384, 1]⟩
abbrev S1x64 : Shape := ⟨2, ![1, 64]⟩
abbrev S64 : Shape := ⟨1, ![64]⟩
abbrev S2000000x64 : Shape := ⟨2, ![2000000, 64]⟩

abbrev nBuf : Space → Nat
  | .hbm => 64
  | .vmem => 11
  | .smem => 0
  | _ => 0

abbrev bufTy : (tb : Table) → Fin (tcTables nBuf tb) → BufTy
  | .hbm, ⟨0, _⟩ => ⟨S50000, .i32⟩
  | .hbm, ⟨1, _⟩ => ⟨S1600000, .i32⟩
  | .hbm, ⟨2, _⟩ => ⟨S1600000, .i32⟩
  | .hbm, ⟨3, _⟩ => ⟨S2000000, .i32⟩
  | .hbm, ⟨4, _⟩ => ⟨S2000000, .i32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .i32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000, .i32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000, .i32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000, .i32⟩
  | .hbm, ⟨53, _⟩ => ⟨S_, .i32⟩
  | .hbm, ⟨54, _⟩ => ⟨S_, .i32⟩
  | .hbm, ⟨55, _⟩ => ⟨S2015232, .i32⟩
  | .hbm, ⟨56, _⟩ => ⟨S_, .i32⟩
  | .hbm, ⟨57, _⟩ => ⟨S_, .i32⟩
  | .hbm, ⟨58, _⟩ => ⟨S2015232, .i32⟩
  | .hbm, ⟨59, _⟩ => ⟨S_, .i32⟩
  | .hbm, ⟨60, _⟩ => ⟨S_, .i32⟩
  | .hbm, ⟨61, _⟩ => ⟨S2015232, .i32⟩
  | .hbm, ⟨62, _⟩ => ⟨S2015232x64, .f32⟩
  | .hbm, ⟨63, _⟩ => ⟨S2000000x64, .f32⟩
  | .local _ .vmem, ⟨0, _⟩ => ⟨S16384, .i32⟩
  | .local _ .vmem, ⟨1, _⟩ => ⟨S16384, .i32⟩
  | .local _ .vmem, ⟨2, _⟩ => ⟨S16384, .i32⟩
  | .local _ .vmem, ⟨3, _⟩ => ⟨S16384, .i32⟩
  | .local _ .vmem, ⟨4, _⟩ => ⟨S16384, .i32⟩
  | .local _ .vmem, ⟨5, _⟩ => ⟨S16384, .i32⟩
  | .local _ .vmem, ⟨6, _⟩ => ⟨S2x64, .f32⟩
  | .local _ .vmem, ⟨7, _⟩ => ⟨S2x64, .f32⟩
  | .local _ .vmem, ⟨8, _⟩ => ⟨S2x64, .f32⟩
  | .local _ .vmem, ⟨9, _⟩ => ⟨S16384x64, .f32⟩
  | .local _ .vmem, ⟨10, _⟩ => ⟨S16384x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_call0_v0 : Ref sig .tc := ⟨.hbm, 54, rfl⟩
abbrev main_v35 : Ref sig .tc := ⟨.hbm, 55, rfl⟩
abbrev main_c_10 : Ref sig .tc := ⟨.hbm, 56, rfl⟩
abbrev main_call1_v0 : Ref sig .tc := ⟨.hbm, 57, rfl⟩
abbrev main_v36 : Ref sig .tc := ⟨.hbm, 58, rfl⟩
abbrev main_c_11 : Ref sig .tc := ⟨.hbm, 59, rfl⟩
abbrev main_call2_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000_S2015232_0152320 : S2000000.Pads (![0] : Fin 1 → Nat) ![15232] ![0] S2015232
  h_S_ : 0 < S_.numel
  inb_S16384_S16384_0 : ∀ a, (![0] : Fin 1 → Nat) a + S16384.size a ≤ S16384.size a
  h_S16384 : 0 < S16384.numel
  shapeCasts_S16384_S16384 : S16384.ShapeCasts S16384
  natLt_1_32 : 1 < 32
  shapeCasts_S16384_S16384x1 : S16384.ShapeCasts S16384x1
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  inb_S2x64_S1x64_1_0 : ∀ a, (![1, 0] : Fin 2 → Nat) a + S1x64.size a ≤ S2x64.size a
  broadcasts_S16384x1_S16384x64 : S16384x1.Broadcasts S16384x64
  broadcasts_S1x64_S16384x64 : S1x64.Broadcasts S16384x64
  inb_S16384x64_S16384x64_0_0 : ∀ a, (![0, 0] : Fin 2 → Nat) a + S16384x64.size a ≤ S16384x64.size a
  h_S16384x64 : 0 < S16384x64.numel
  slices_S2015232x64_S2000000x64_0_0 : S2015232x64.Slices ![0, 0] S2000000x64
  gather_S50000_S1600000x1_S1600000_n_0_n_n_0_1_1_wf : GatherDims.WF S50000 S1600000x1 S1600000 [] [0] [] [0] [] 1 ![1]
  gather_S1600000_S2000000x1_S2000000_n_0_n_n_0_1_1_wf : GatherDims.WF S1600000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S2015232.size a
  hwx0_0 : ∀ i : grid0.Coords, EltTy.bits .i32 = 32 ∨ (Rect.block (s := S2015232) S16384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S2015232.size a
  hwx0_1 : ∀ i : grid0.Coords, EltTy.bits .i32 = 32 ∨ (Rect.block (s := S2015232) S16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S2015232.size a
  hwx0_2 : ∀ i : grid0.Coords, EltTy.bits .i32 = 32 ∨ (Rect.block (s := S2015232) S16384.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x64.size a ≤ S2015232x64.size a
  hwx0_6 : ∀ i : grid0.Coords, EltTy.bits .f32 = 32 ∨ (Rect.block (s := S2015232x64) S16384x64.size (cc0_transform_6 i) (hinb0_6 i)).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S1600000_S2000000x1_S2000000_n_0_n_n_0_1_1 : GatherDims S1600000 S2000000x1 S2000000 where
  offsetDims := []
  collapsedSliceDims := [0]
  operandBatchingDims := []
  startIndicesBatchingDims := []
  startIndexMap := [0]
  indexVectorDim := 1
  sliceSizes := ![1]
  wf := gather_S1600000_S2000000x1_S2000000_n_0_n_n_0_1_1_wf

abbrev win0_0 : Pipeline.Window sig grid0 :=
  Pipeline.Window.ofSpec (Memref.whole main_v35) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S16384x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000 : Shape := ⟨1, ![50000]⟩
abbrev S1600000 : Shape := ⟨1, ![1600000]⟩
abbrev S2000000 : Shape := ⟨1, ![2000000]⟩
abbrev S2x64 : Shape := ⟨2, ![2, 64]⟩
abbrev S_ : Shape := ⟨0, ![]⟩
abbrev S1600000x1 : Shape := ⟨2, ![1600000, 1]⟩
abbrev S2000000x1 : Shape := ⟨2, ![2000000, 1]⟩
abbrev S2000000x64 : Shape := ⟨2, ![2000000, 64]⟩

abbrev nBuf : Space → Nat
  | .hbm => 88
  | .vmem => 0
  | .smem => 0
  | _ => 0

abbrev bufTy : (tb : Table) → Fin (tcTables nBuf tb) → BufTy
  | .hbm, ⟨0, _⟩ => ⟨S50000, .i32⟩
  | .hbm, ⟨1, _⟩ => ⟨S1600000, .i32⟩
  | .hbm, ⟨2, _⟩ => ⟨S1600000, .i32⟩
  | .hbm, ⟨3, _⟩ => ⟨S2000000, .i32⟩
  | .hbm, ⟨4, _⟩ => ⟨S2000000, .i32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .i32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000, .i32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000, .i32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000, .i32⟩
  | .hbm, ⟨53, _⟩ => ⟨S2000000, .i1⟩
  | .hbm, ⟨54, _⟩ => ⟨S2000000, .i32⟩
  | .hbm, ⟨55, _⟩ => ⟨S2000000, .i1⟩
  | .hbm, ⟨56, _⟩ => ⟨S2000000, .i32⟩
  | .hbm, ⟨57, _⟩ => ⟨S2000000, .i1⟩
  | .hbm, ⟨58, _⟩ => ⟨S2000000, .i32⟩
  | .hbm, ⟨59, _⟩ => ⟨S_, .i32⟩
  | .hbm, ⟨60, _⟩ => ⟨S2000000, .i32⟩
  | .hbm, ⟨61, _⟩ => ⟨S2000000, .i1⟩
  | .hbm, ⟨62, _⟩ => ⟨S_, .i32⟩
  | .hbm, ⟨63, _⟩ => ⟨S2000000, .i32⟩
  | .hbm, ⟨64, _⟩ => ⟨S2000000, .i32⟩
  | .hbm, ⟨65, _⟩ => ⟨S2000000, .i32⟩
  | .hbm, ⟨66, _⟩ => ⟨S2000000x1, .i32⟩
  | .hbm, ⟨67, _⟩ => ⟨S2000000x64, .f32⟩
  | .hbm, ⟨68, _⟩ => ⟨S_, .i32⟩
  | .hbm, ⟨69, _⟩ => ⟨S2000000, .i32⟩
  | .hbm, ⟨70, _⟩ => ⟨S2000000, .i1⟩
  | .hbm, ⟨71, _⟩ => ⟨S_, .i32⟩
  | .hbm, ⟨72, _⟩ => ⟨S2000000, .i32⟩
  | .hbm, ⟨73, _⟩ => ⟨S2000000, .i32⟩
  | .hbm, ⟨74, _⟩ => ⟨S2000000, .i32⟩
  | .hbm, ⟨75, _⟩ => ⟨S2000000x1, .i32⟩
  | .hbm, ⟨76, _⟩ => ⟨S2000000x64, .f32⟩
  | .hbm, ⟨77, _⟩ => ⟨S2000000x64, .f32⟩
  | .hbm, ⟨78, _⟩ => ⟨S_, .i32⟩
  | .hbm, ⟨79, _⟩ => ⟨S2000000, .i32⟩
  | .hbm, ⟨80, _⟩ => ⟨S2000000, .i1⟩
  | .hbm, ⟨81, _⟩ => ⟨S_, .i32⟩
  | .hbm, ⟨82, _⟩ => ⟨S2000000, .i32⟩
  | .hbm, ⟨83, _⟩ => ⟨S2000000, .i32⟩
  | .hbm, ⟨84, _⟩ => ⟨S2000000, .i32⟩
  | .hbm, ⟨85, _⟩ => ⟨S2000000x1, .i32⟩
  | .hbm, ⟨86, _⟩ => ⟨S2000000x64, .f32⟩
  | .hbm, ⟨87, _⟩ => ⟨S2000000x64, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_13 : Ref sig .tc := ⟨.hbm, 78, rfl⟩
abbrev main_v56 : Ref sig .tc := ⟨.hbm, 79, rfl⟩
abbrev main_v57 : Ref sig .tc := ⟨.hbm, 80, rfl⟩
abbrev main_c_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  natLt_1_32 : 1 < 32
  gather_S50000_S1600000x1_S1600000_n_0_n_n_0_1_1_wf : GatherDims.WF S50000 S1600000x1 S1600000 [] [0] [] [0] [] 1 ![1]
  gather_S1600000_S2000000x1_S2000000_n_0_n_n_0_1_1_wf : GatherDims.WF S1600000 S2000000x1 S2000000 [] [0] [] [0] [] 1 ![1]
  gather_S2x64_S2000000x1_S2000000x64_1_0_n_n_0_1_164_wf : GatherDims.WF S2x64 S2000000x1 S2000000x64 [1] [0] [] [0] [] 1 ![1, 64]

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S1600000_S2000000x1_S2000000_n_0_n_n_0_1_1 : GatherDims S1600000 S2000000x1 S2000000 where
  offsetDims := []
  collapsedSliceDims := [0]
  operandBatchingDims := []
  startIndicesBatchingDims := []
  startIndexMap := [0]
  indexVectorDim := 1
  sliceSizes := ![1]
  wf := gather_S1600000_S2000000x1_S2000000_n_0_n_n_0_1_1_wf
def gather_S2x64_S2000000x1_S2000000x64_1_0_n_n_0_1_164 : GatherDims S2x64 S2000000x1 S2000000x64 where
  offsetDims := [1]
  collapsedSliceDims := [0]
  operandBatchingDims := []
  startIndicesBatchingDims := []
  startIndexMap := [0]
  indexVectorDim := 1
  sliceSizes := ![1, 64]
  wf := gather_S2x64_S2000000x1_S2000000x64_1_0_n_n_0_1_164_wf

class Facts : Prop extends Facts₀ where

variable [Facts]
-- ==== Proof.Blend.lean ====
/-
  The algebra of one output element, on the extended reals.

  For three one-bit flags c₁ c₂ c₃ and three two-row tables with rows (a₀, a₁), (b₀, b₁), (d₀, d₁) the kernel forms
      ((((a₀ + f c₁ · (a₁ − a₀)) + b₀) + f c₂ · (b₁ − b₀)) + d₀) + f c₃ · (d₁ − d₀)
  where f c ∈ {0, 1} is the flag widened to 32 bits and read as a signed integer, while the reference picks a row of
  each table by the flag and adds the three picks: (a_{c₁} + b_{c₂}) + d_{c₃}.
  A blend x₀ + f c · (x₁ − x₀) is the pick x_c as soon as x₀ and x₁ are real numbers (at an infinite x₀ the difference
  x₁ − x₀ would absorb it), and the two groupings of the six summands agree because addition of extended reals is
  associative. Also here: the row a flag picks when it is used as an index into a two-row table the way the
  reference does it (negative indices wrapped by the table's height, then clamped into the table).
-/
import Idealize.ShloMosaic.PureOps.Ideal
import Idealize.ShloMosaic.Lib.ValueIdx

noncomputable section

namespace Cert.Triplet

open Idealize.ShloMosaic

/-- A one-bit flag widened to 32 bits and read as a signed integer, as an extended real: 0 or 1. -/
def flag (c : BitVec 1) : EReal := (((c.setWidth 32).toInt : ℝ) : EReal)

theorem flag_zero : flag 0#1 = 0 := by
  show (((0#32 : BitVec 32).toInt : ℝ) : EReal) = 0
  simp

theorem flag_one : flag 1#1 = 1 := by
  show (((1#32 : BitVec 32).toInt : ℝ) : EReal) = 1
  simp

/-- The row of a two-row table a flag picks. -/
def pick (c : BitVec 1) (x0 x1 : EReal) : EReal := if c = 1#1 then x1 else x0

/-- Between two real numbers the blend by a flag is the pick. -/
theorem blend_eq_pick (c : BitVec 1) (x0 x1 : EReal) (h0 : x0 ≠ ⊤ ∧ x0 ≠ ⊥) (h1 : x1 ≠ ⊤ ∧ x1 ≠ ⊥) :
    x0 + flag c * (x1 - x0) = pick c x0 x1 := by
  lift x0 to ℝ using h0
  lift x1 to ℝ using h1
  rcases BitVec.eq_zero_or_eq_one c with rfl | rfl
  · rw [flag_zero, zero_mul, add_zero]; rfl
  · rw [flag_one, one_mul, ← EReal.coe_sub, ← EReal.coe_add]
    show ((x0 + (x1 - x0) : ℝ) : EReal) = (x1 : EReal)
    congr 1; ring

/-- THE LAW: the kernel's running sum of three blends is the reference's sum of three picks, at real table entries. -/
theorem blends_eq_picks (c1 c2 c3 : BitVec 1) (a0 a1 b0 b1 d0 d1 : EReal)
    (ha0 : a0 ≠ ⊤ ∧ a0 ≠ ⊥) (ha1 : a1 ≠ ⊤ ∧ a1 ≠ ⊥) (hb0 : b0 ≠ ⊤ ∧ b0 ≠ ⊥) (hb1 : b1 ≠ ⊤ ∧ b1 ≠ ⊥)
    (hd0 : d0 ≠ ⊤ ∧ d0 ≠ ⊥) (hd1 : d1 ≠ ⊤ ∧ d1 ≠ ⊥) :
    ((((a0 + flag c1 * (a1 - a0)) + b0) + flag c2 * (b1 - b0)) + d0) + flag c3 * (d1 - d0)
      = (pick c1 a0 a1 + pick c2 b0 b1) + pick c3 d0 d1 := by
  rw [← blend_eq_pick c1 a0 a1 ha0 ha1, ← blend_eq_pick c2 b0 b1 hb0 hb1, ← blend_eq_pick c3 d0 d1 hd0 hd1]
  simp only [add_assoc]

/-- One output element as the kernel forms it: from the three integers a, b, c of its row (compared a with c, a with b,
    c with b) and the two entries of its column in each of the three tables. -/
def blendSum (a b c : BitVec 32) (e10 e11 e20 e21 e30 e31 : EReal) : EReal :=
  ((((e10 + flag (IntOp.cmpi .eq a c) * (e11 - e10)) + e20) + flag (IntOp.cmpi .eq a b) * (e21 - e20)) + e30)
    + flag (IntOp.cmpi .eq c b) * (e31 - e30)

/-- The same element as the reference forms it: a row of each table picked by the comparison, the three picks added. -/
def pickSum (a b c : BitVec 32) (e10 e11 e20 e21 e30 e31 : EReal) : EReal :=
  (pick (IntOp.cmpi .eq a c) e10 e11 + pick (IntOp.cmpi .eq a b) e20 e21) + pick (IntOp.cmpi .eq c b) e30 e31

/-- At real table entries the two are equal. -/
theorem blendSum_eq_pickSum (a b c : BitVec 32) (e10 e11 e20 e21 e30 e31 : EReal)
    (h10 : e10 ≠ ⊤ ∧ e10 ≠ ⊥) (h11 : e11 ≠ ⊤ ∧ e11 ≠ ⊥) (h20 : e20 ≠ ⊤ ∧ e20 ≠ ⊥) (h21 : e21 ≠ ⊤ ∧ e21 ≠ ⊥)
    (h30 : e30 ≠ ⊤ ∧ e30 ≠ ⊥) (h31 : e31 ≠ ⊤ ∧ e31 ≠ ⊥) :
    blendSum a b c e10 e11 e20 e21 e30 e31 = pickSum a b c e10 e11 e20 e21 e30 e31 :=
  blends_eq_picks _ _ _ e10 e11 e20 e21 e30 e31 h10 h11 h20 h21 h30 h31

/-- The flag as a row index, the way the reference computes it: widened to 32 bits, 2 added if negative (it never
    is), read signed and clamped into [0, 1]. It is row 1 for the flag 1 and row 0 for the flag 0. -/
theorem flag_row (c : BitVec 1) :
    min (Scalar.select (IntOp.cmpi .slt (c.setWidth 32) 0#32) (IntOp.addi (c.setWidth 32) 2#32) (c.setWidth 32)).toInt.toNat 1
      = if c = 1#1 then 1 else 0 := by
  rcases BitVec.eq_zero_or_eq_one c with rfl | rfl <;> decide

end Cert.Triplet

end
-- ==== Proof.Columns.lean ====
/-
  A vector as a column, and a column spread over the columns of a matrix, read at an index.
-/
import Idealize.ShloMosaic.Lib.Pipeline.Value
import Idealize.ShloMosaic.Lib.ValueIdx

noncomputable section

namespace Cert.Triplet

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Triplet

end
-- ==== Proof.BlockValue.lean ====
/-
  What the kernel body leaves in the output window's staging buffer, element by element.

  The body reads three blocks of 16384 integers (a, b, c) and three whole two-row tables (E₁, E₂, E₃ : [2, 64]) and
  stores ONE [16384, 64] block. Its element (p, q) is the running sum
      ((((E₁[0,q] + f(a_p = c_p) · (E₁[1,q] − E₁[0,q])) + E₂[0,q]) + f(a_p = b_p) · (E₂[1,q] − E₂[0,q])) + E₃[0,q])
          + f(c_p = b_p) · (E₃[1,q] − E₃[0,q])
  where f is a comparison's bit read as the number 0 or 1 (`Cert.Triplet.flag`): the comparison columns are broadcast
  along the 64 lanes, the table rows along the 16384 sublanes.
-/
import proofs.«132046_j9345848836728_2_alg».proof.Proof.Gen.KernelIdeal.Frame
import proofs.«132046_j9345848836728_2_alg».proof.Proof.Blend
import proofs.«132046_j9345848836728_2_alg».proof.Proof.Columns
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Triplet

theorem hz1 : (![0] : Fin 1 → Nat) = fun _ => 0 := funext fun a => by fin_cases a; rfl
theorem hz2 : (![0, 0] : Fin 2 → Nat) = fun _ => 0 := funext fun a => by fin_cases a <;> rfl

/-- A comparison of two integer vectors, widened, converted to a float and set up as a column: at row p it is the
    flag of the comparison of the two entries of row p. -/
theorem eq_column_apply (u v : IVec S16384 32) (p : Fin 16384) (z : Fin 1) :
    shapeCast S16384x1 (sitofp (F := Ideal) .f32 (extui 32 (cmpi .eq u v) natLt_1_32)) shapeCasts_S16384_S16384x1 (ix2 p z)
      = flag (IntOp.cmpi .eq (u (ix1 p)) (v (ix1 p))) := by
  rw [shapeCast_a_a1_apply]
  rfl

/-- A whole block of integers, loaded. -/
theorem ld_whole (x : Vec Ideal S16384 .i32) : View.ld x r0_0 = x :=
  View.ld_unit_zero (S := S16384) hz1 _ x

/-- Row `0` of a two-row table, loaded as a `[1, 64]` vector. -/
theorem row0_apply (x : Vec Ideal S2x64 .f32) (z : Fin 1) (q : Fin 64) :
    View.ld x r0_1 (ix2 z q) = x (ix2 (0 : Fin 2) q) := by
  show x (r0_1.idx (ix2 z q)) = _
  congr 1
  funext a; refine Fin.ext ?_
  match a with
  | ⟨0, _⟩ => show 0 + 1 * z.val = 0; omega
  | ⟨1, _⟩ => show 0 + 1 * q.val = q.val; omega

/-- Row `1` of a two-row table, loaded as a `[1, 64]` vector. -/
theorem row1_apply (x : Vec Ideal S2x64 .f32) (z : Fin 1) (q : Fin 64) :
    View.ld x r0_2 (ix2 z q) = x (ix2 (1 : Fin 2) q) := by
  show x (r0_2.idx (ix2 z q)) = _
  congr 1
  funext a; refine Fin.ext ?_
  match a with
  | ⟨0, _⟩ => show 1 + 1 * z.val = 1; omega
  | ⟨1, _⟩ => show 0 + 1 * q.val = q.val; omega

/-- The first comparison column (a against b). -/
theorem pay5_apply (v0 v2 : Vec Ideal S16384 .i32) (p : Fin 16384) (z : Fin 1) :
    k0_pay5 v0 v2 (ix2 p z) = flag (IntOp.cmpi .eq (v0 (ix1 p)) (v2 (ix1 p))) := by
  unfold k0_pay5 k0_pay2 k0_pay3
  dsimp only
  rw [shapeCast_self, shapeCast_self]
  exact eq_column_apply v0 v2 p z

/-- The second comparison column (c against b). -/
theorem pay6_apply (v2 v4 : Vec Ideal S16384 .i32) (p : Fin 16384) (z : Fin 1) :
    k0_pay6 v2 v4 (ix2 p z) = flag (IntOp.cmpi .eq (v4 (ix1 p)) (v2 (ix1 p))) := by
  unfold k0_pay6 k0_pay4 k0_pay3
  dsimp only
  rw [shapeCast_self, shapeCast_self]
  exact eq_column_apply v4 v2 p z

/-- A loaded table row, flattened and set up as a row again, is itself. -/
theorem pay7_eq (v : Vec Ideal S1x64 .f32) : k0_pay7 v = v := by
  unfold k0_pay7; exact shapeCast_shapeCast v _ _
theorem pay8_eq (v : Vec Ideal S1x64 .f32) : k0_pay8 v = v := by
  unfold k0_pay8; exact shapeCast_shapeCast v _ _
theorem pay9_eq (v : Vec Ideal S1x64 .f32) : k0_pay9 v = v := by
  unfold k0_pay9; exact shapeCast_shapeCast v _ _
theorem pay10_eq (v : Vec Ideal S1x64 .f32) : k0_pay10 v = v := by
  unfold k0_pay10; exact shapeCast_shapeCast v _ _

/-- The first blend (a against c, over table one) plus row 0 of table two. -/
theorem pay11_apply (v0 v4 : Vec Ideal S16384 .i32) (v18 v21 v24 : Vec Ideal S1x64 .f32) (p : Fin 16384) (q : Fin 64) :
    k0_pay11 v0 v4 v18 v21 v24 (ix2 p q)
      = (v18 (ix2 (0 : Fin 1) q) + flag (IntOp.cmpi .eq (v0 (ix1 p)) (v4 (ix1 p))) * (v21 (ix2 (0 : Fin 1) q) - v18 (ix2 (0 : Fin 1) q)))
          + v24 (ix2 (0 : Fin 1) q) := by
  unfold k0_pay11 k0_pay2 k0_pay4
  dsimp only
  rw [pay7_eq, shapeCast_self, shapeCast_self, shapeCast_shapeCast, shapeCast_shapeCast]
  simp only [addf_apply, mulf_apply, subf_apply, broadcastTo_1b_ab_apply, broadcastTo_a1_ab_apply, eq_column_apply]

/-- The stored value from the pieces before it. -/
theorem pay1_apply (v13 v17 : FVec Ideal S16384x1 .f32) (v26 v29 v32 v35 : FVec Ideal S1x64 .f32) (v43 : FVec Ideal S16384x64 .f32)
    (p : Fin 16384) (q : Fin 64) :
    k0_pay1 v13 v17 v26 v29 v32 v35 v43 (ix2 p q)
      = ((v43 (ix2 p q) + v13 (ix2 p (0 : Fin 1)) * (v29 (ix2 (0 : Fin 1) q) - v26 (ix2 (0 : Fin 1) q))) + v32 (ix2 (0 : Fin 1) q))
          + v17 (ix2 p (0 : Fin 1)) * (v35 (ix2 (0 : Fin 1) q) - v32 (ix2 (0 : Fin 1) q)) := by
  unfold k0_pay1
  simp only [addf_apply, mulf_apply, subf_apply, broadcastTo_1b_ab_apply, broadcastTo_a1_ab_apply]

/-- THE BLOCK: element (p, q) of what the body stores, from the three integer blocks and the three tables. -/
theorem block_apply (x0 x1 x2 : Vec Ideal S16384 .i32) (x3 x4 x5 : Vec Ideal S2x64 .f32) (p : Fin 16384) (q : Fin 64) :
    out0_6 x0 x1 x2 x3 x4 x5 (ix2 p q)
      = ((((x3 (ix2 (0 : Fin 2) q) + flag (IntOp.cmpi .eq (x0 (ix1 p)) (x2 (ix1 p))) * (x3 (ix2 (1 : Fin 2) q) - x3 (ix2 (0 : Fin 2) q)))
            + x4 (ix2 (0 : Fin 2) q))
          + flag (IntOp.cmpi .eq (x0 (ix1 p)) (x1 (ix1 p))) * (x4 (ix2 (1 : Fin 2) q) - x4 (ix2 (0 : Fin 2) q)))
          + x5 (ix2 (0 : Fin 2) q))
        + flag (IntOp.cmpi .eq (x2 (ix1 p)) (x1 (ix1 p))) * (x5 (ix2 (1 : Fin 2) q) - x5 (ix2 (0 : Fin 2) q)) := by
  unfold out0_6
  rw [View.canon_unit_zero hz2]
  rw [ld_whole x0, ld_whole x1, ld_whole x2]
  rw [pay1_apply, pay11_apply, pay5_apply, pay6_apply, pay7_eq, pay8_eq, pay9_eq, pay10_eq]
  rw [row0_apply x3, row1_apply x3, row0_apply x4, row1_apply x4, row0_apply x5, row1_apply x5]

end Cert.KernelIdeal.Block

end
-- ==== Proof.ArrayValue.lean ====
/-
  The kernel's output array after the launch, as ONE function of the arrays the launch finds.

  The grid has 123 points. Point t stages rows 16384·t … 16384·t + 16383 of the three padded integer arrays (a, b, c
  of length 2015232 = 123 · 16384), the three tables whole (block (0, 0) of a [2, 64] array), and writes rows
  16384·t … of the [2015232, 64] output. So what point t writes back is block t of the array `rowSums` below — element
  (r, q) the running sum of the three blends taken with the flags of row r — and the 123 blocks tile the output.
-/
import proofs.«132046_j9345848836728_2_alg».proof.Proof.BlockValue

noncomputable section

namespace Cert.KernelIdeal.Block

open Cert.KernelIdeal Cert.KernelIdeal.Gen Idealize.ShloMosaic Idealize.ShloMosaic.TcCoe Idealize.SL.Sem
open Idealize.ShloMosaic.ValueIdx Cert.Triplet
open Idealize.ShloMosaic.Pipeline (Dat)

variable (m : (ℓ : Loc nD τ sig) → Buf (Elt Ideal) ℓ) (ρ : Dev nD → PrngReg)

/-- The padded output array: row r from the r-th entries of the three padded integer arrays and the three tables. -/
def rowSums (A B C : S2015232.Idx → BitVec 32) (E1 E2 E3 : S2x64.Idx → EReal) : S2015232x64.Idx → EReal := fun i =>
  blendSum (A (ix1 (i 0))) (B (ix1 (i 0))) (C (ix1 (i 0)))
    (E1 (ix2 (0 : Fin 2) (i 1))) (E1 (ix2 (1 : Fin 2) (i 1))) (E2 (ix2 (0 : Fin 2) (i 1))) (E2 (ix2 (1 : Fin 2) (i 1)))
    (E3 (ix2 (0 : Fin 2) (i 1))) (E3 (ix2 (1 : Fin 2) (i 1)))

/-- The stored block at a general index of the block. -/
theorem block_apply_idx (x0 x1 x2 : Vec Ideal S16384 .i32) (x3 x4 x5 : Vec Ideal S2x64 .f32) (j : S16384x64.Idx) :
    out0_6 x0 x1 x2 x3 x4 x5 j
      = blendSum (x0 (ix1 (j 0))) (x1 (ix1 (j 0))) (x2 (ix1 (j 0)))
          (x3 (ix2 (0 : Fin 2) (j 1))) (x3 (ix2 (1 : Fin 2) (j 1))) (x4 (ix2 (0 : Fin 2) (j 1))) (x4 (ix2 (1 : Fin 2) (j 1)))
          (x5 (ix2 (0 : Fin 2) (j 1))) (x5 (ix2 (1 : Fin 2) (j 1))) :=
  (congrArg (out0_6 x0 x1 x2 x3 x4 x5) (eq_ix2 j)).trans (block_apply x0 x1 x2 x3 x4 x5 (j 0) (j 1))

/-- The printed index maps, decided over the 123 points: the integer windows and the output move together, one block
    per point; the tables stay at block (0, 0). -/
theorem idx_facts : ∀ t : Fin cfg0.N, win0_0.index t (0 : Fin 1) = t.val ∧ win0_1.index t (0 : Fin 1) = t.val
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- An integer window's block at point t is rows 16384·t … of its array. -/
theorem iblk0_apply (c : Dev nD) (t : Fin cfg0.N) (y : S16384.Idx) (k : S2015232.Idx)
    (hk : (k 0).val = t.val * 16384 + (y 0).val) :
    (iblk m c 0 t : Vec Ideal S16384 .i32) y = (V m c main_v35 : S2015232.Idx → BitVec 32) k := by
  have hi := (idx_facts t).1
  unfold iblk
  rw [View.read_apply]
  show V m c main_v35 _ = V m c main_v35 _
  congr 1
  funext a; apply Fin.ext
  match a with
  | ⟨0, _⟩ => show win0_0.index t (0 : Fin 1) * 16384 + 1 * (y 0).val = (k 0).val; rw [hi, hk]; omega

theorem iblk1_apply (c : Dev nD) (t : Fin cfg0.N) (y : S16384.Idx) (k : S2015232.Idx)
    (hk : (k 0).val = t.val * 16384 + (y 0).val) :
    (iblk m c 1 t : Vec Ideal S16384 .i32) y = (V m c main_v36 : S2015232.Idx → BitVec 32) k := by
  have hi := (idx_facts t).2.1
  unfold iblk
  rw [View.read_apply]
  show V m c main_v36 _ = V m c main_v36 _
  congr 1
  funext a; apply Fin.ext
  match a with
  | ⟨0, _⟩ => show win0_1.index t (0 : Fin 1) * 16384 + 1 * (y 0).val = (k 0).val; rw [hi, hk]; omega

theorem iblk2_apply (c : Dev nD) (t : Fin cfg0.N) (y : S16384.Idx) (k : S2015232.Idx)
    (hk : (k 0).val = t.val * 16384 + (y 0).val) :
    (iblk m c 2 t : Vec Ideal S16384 .i32) y = (V m c main_v37 : S2015232.Idx → BitVec 32) k := by
  have hi := (idx_facts t).2.2.1
  unfold iblk
  rw [View.read_apply]
  show V m c main_v37 _ = V m c main_v37 _
  congr 1
  funext a; apply Fin.ext
  match a with
  | ⟨0, _⟩ => show win0_2.index t (0 : Fin 1) * 16384 + 1 * (y 0).val = (k 0).val; rw [hi, hk]; omega

/-- A table's window is the whole table at every point. -/
theorem iblk3_apply (c : Dev nD) (t : Fin cfg0.N) (y : S2x64.Idx) :
    (iblk m c 3 t : Vec Ideal S2x64 .f32) y = (V m c main_arg5 : S2x64.Idx → EReal) y := by
  obtain ⟨-, -, -, h0, h1, -⟩ := idx_facts t
  unfold iblk
  rw [View.read_apply]
  show V m c main_arg5 _ = V m c main_arg5 _
  congr 1
  funext a; apply Fin.ext
  match a with
  | ⟨0, _⟩ => show win0_3.index t (0 : Fin 2) * 2 + 1 * (y 0).val = (y 0).val; rw [h0]; omega
  | ⟨1, _⟩ => show win0_3.index t (1 : Fin 2) * 64 + 1 * (y 1).val = (y 1).val; rw [h1]; omega

theorem iblk4_apply (c : Dev nD) (t : Fin cfg0.N) (y : S2x64.Idx) :
    (iblk m c 4 t : Vec Ideal S2x64 .f32) y = (V m c main_arg6 : S2x64.Idx → EReal) y := by
  obtain ⟨-, -, -, -, -, h0, h1, -⟩ := idx_facts t
  unfold iblk
  rw [View.read_apply]
  show V m c main_arg6 _ = V m c main_arg6 _
  congr 1
  funext a; apply Fin.ext
  match a with
  | ⟨0, _⟩ => show win0_4.index t (0 : Fin 2) * 2 + 1 * (y 0).val = (y 0).val; rw [h0]; omega
  | ⟨1, _⟩ => show win0_4.index t (1 : Fin 2) * 64 + 1 * (y 1).val = (y 1).val; rw [h1]; omega

theorem iblk5_apply (c : Dev nD) (t : Fin cfg0.N) (y : S2x64.Idx) :
    (iblk m c 5 t : Vec Ideal S2x64 .f32) y = (V m c main_arg7 : S2x64.Idx → EReal) y := by
  obtain ⟨-, -, -, -, -, -, -, h0, h1, -⟩ := idx_facts t
  unfold iblk
  rw [View.read_apply]
  show V m c main_arg7 _ = V m c main_arg7 _
  congr 1
  funext a; apply Fin.ext
  match a with
  | ⟨0, _⟩ => show win0_5.index t (0 : Fin 2) * 2 + 1 * (y 0).val = (y 0).val; rw [h0]; omega
  | ⟨1, _⟩ => show win0_5.index t (1 : Fin 2) * 64 + 1 * (y 1).val = (y 1).val; rw [h1]; omega

/-- What the body leaves at point t, at block index j, is `rowSums` at the array index i that j names in block t. -/
theorem stored_apply (c : Dev nD) (t : Fin cfg0.N) (j : S16384x64.Idx) (i : S2015232x64.Idx)
    (hi0 : (i 0).val = t.val * 16384 + (j 0).val) (hi1 : (i 1).val = (j 1).val) :
    out0_6 (iblk m c 0 t) (iblk m c 1 t) (iblk m c 2 t) (iblk m c 3 t) (iblk m c 4 t) (iblk m c 5 t) j
      = rowSums (V m c main_v35) (V m c main_v36) (V m c main_v37) (V m c main_arg5) (V m c main_arg6) (V m c main_arg7) i := by
  have e1 : (j 1 : Fin 64) = i 1 := Fin.ext hi1.symm
  refine (block_apply_idx (iblk m c 0 t) (iblk m c 1 t) (iblk m c 2 t) (iblk m c 3 t) (iblk m c 4 t) (iblk m c 5 t) j).trans ?_
  rw [iblk0_apply m c t (ix1 (j 0)) (ix1 (i 0)) hi0, iblk1_apply m c t (ix1 (j 0)) (ix1 (i 0)) hi0,
    iblk2_apply m c t (ix1 (j 0)) (ix1 (i 0)) hi0,
    iblk3_apply m c t, iblk3_apply m c t, iblk4_apply m c t, iblk4_apply m c t, iblk5_apply m c t, iblk5_apply m c t, e1]
  rfl

/-- WHAT POINT t WRITES BACK is block t of `rowSums` of the arrays as the launch finds them. -/
theorem flushed_eq (c : Dev nD) (t : Fin cfg0.N) :
    (dats m 0 c).flushed 6 t = ((cfg0.win 6).blk t).view.read (Elt Ideal)
      (rowSums (V m c main_v35) (V m c main_v36) (V m c main_v37) (V m c main_arg5) (V m c main_arg6) (V m c main_arg7)) := by
  show (cfg0.win 6).cut (grid0.coords t) ((dats m 0 c).after 6 t) = _
  rw [after0_6]
  obtain ⟨-, -, -, -, -, -, -, -, -, h0, h1⟩ := idx_facts t
  funext j
  refine stored_apply m c t j (((cfg0.win 6).blk t).view.emb j) ?_ ?_
  · show win0_6.index t (0 : Fin 2) * 16384 + 1 * (j 0).val = t.val * 16384 + (j 0).val
    rw [h0]; omega
  · show win0_6.index t (1 : Fin 2) * 64 + 1 * (j 1).val = (j 1).val
    rw [h1]; omega

/-- An index of the output array is in point t's block iff each coordinate is in the block's range on its axis. -/
theorem mem_blk (t : Fin cfg0.N) (i : S2015232x64.Idx) :
    i ∈ ((cfg0.win 6).blk t).view.set ↔ ∀ a : Fin 2, win0_6.index t a * S16384x64.size a ≤ (i a).val
      ∧ (i a).val < win0_6.index t a * S16384x64.size a + S16384x64.size a := by
  show i ∈ ((View.whole main_v38).slice (win0_6.rect t)).set ↔ _
  rw [View.set_slice_whole, Rect.mem_set_unit]
  exact Iff.rfl

/-- Every row of the output array is in the block of the point 16384 rows wide that contains it. -/
theorem covered (i : S2015232x64.Idx) :
    ∃ t : Fin cfg0.N, (cfg0.win 6).flush t = true ∧ i ∈ ((cfg0.win 6).blk t).view.set := by
  have hi0 : (i 0).val < 2015232 := (i 0).isLt
  have hi1 : (i 1).val < 64 := (i 1).isLt
  have hN : cfg0.N = 123 := N_0
  let t : Fin cfg0.N := ⟨(i 0).val / 16384, by rw [hN]; omega⟩
  obtain ⟨-, -, -, -, -, -, -, -, -, h0, h1⟩ := idx_facts t
  have ht : t.val = (i 0).val / 16384 := rfl
  refine ⟨t, flush0_6 t, ?_⟩
  rw [mem_blk]
  intro a
  match a with
  | ⟨0, _⟩ =>
    show win0_6.index t (0 : Fin 2) * 16384 ≤ (i 0).val ∧ (i 0).val < win0_6.index t (0 : Fin 2) * 16384 + 16384
    rw [h0, ht]; omega
  | ⟨1, _⟩ =>
    show win0_6.index t (1 : Fin 2) * 64 ≤ (i 1).val ∧ (i 1).val < win0_6.index t (1 : Fin 2) * 64 + 64
    rw [h1]; omega

/-- THE OUTPUT ARRAY after the launch is `rowSums` of the arrays the launch finds. -/
theorem final (c : Dev nD) : (dats m 0 c).arrAt 6 cfg0.N
    = rowSums (V m c main_v35) (V m c main_v36) (V m c main_v37) (V m c main_arg5) (V m c main_arg6) (V m c main_arg7) :=
  (dats m 0 c).arrAt_eq_of_cover 6 _ (fun t _ => flushed_eq m c t) covered

end Cert.KernelIdeal.Block

end
-- ==== Proof.PadRows.lean ====
/-
  A vector padded at its end, read below the padding.
-/
import Idealize.ShloMosaic.PureOps
import Idealize.ShloMosaic.Lib.ValueIdx

noncomputable section

namespace Cert.Triplet

open Idealize.ShloMosaic Idealize.ShloMosaic.ValueIdx

variable {α : Type}

/-- A vector of length n padded at its end only (no padding in front, none between the entries) reads, at a position
    below n, the vector's entry there — whatever the padding value. -/
theorem pad_end_apply {n k N : ℕ} {u : Shape} (x : (⟨1, ![n]⟩ : Shape).Idx → α) (v : u.Idx → α)
    (h : (⟨1, ![n]⟩ : Shape).Pads ![0] ![k] ![0] ⟨1, ![N]⟩) (hu : 0 < u.numel) (r : Fin n) (r' : Fin N) (hr : r'.val = r.val) :
    pad ⟨1, ![N]⟩ ![0] ![k] ![0] x v h hu (ix1 r') = x (ix1 r) := by
  unfold pad
  split
  · congr 1
    funext a; apply Fin.ext
    match a with
    | ⟨0, _⟩ =>
      show (r'.val - 0) / (0 + 1) = r.val
      rw [hr]; simp
  · rename_i hno
    exfalso; apply hno
    intro a
    match a with
    | ⟨0, _⟩ =>
      show 0 ≤ r'.val ∧ (r'.val - 0) % (0 + 1) = 0 ∧ (r'.val - 0) / (0 + 1) < n
      have := r.isLt
      rw [hr]
      refine ⟨Nat.zero_le _, Nat.mod_one _, ?_⟩
      simpa using this

end Cert.Triplet

end
-- ==== Proof.TableRows.lean ====
/-
  Rows of a table taken by an integer array, read at an index.

  `table[idx]` of a table `[N, C]` at an integer array `idx : [R]` is a gather whose start indices are `idx` as a
  column `[R, 1]`: row axis collapsed, column axis an offset axis of full width. Result element (r, q) is the table at
  row `idx[r, 0]` — read as a signed integer and clamped into [0, N − 1] — and column q.
-/
import Idealize.ShloMosaic.PureOps
import Idealize.ShloMosaic.Lib.ValueIdx

noncomputable section

namespace Cert.Triplet

open Idealize.ShloMosaic Idealize.ShloMosaic.ValueIdx

variable {α : Type}

/-- The dimension numbers of `table[idx]` for a table `[N, C]`, start indices `[R, 1]` and result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROWS READ AT (r, q): the table at the row `idx[r, 0]` names, clamped into the table, and column q. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q)
      = x (ix2 ⟨min (idx (ix2 r (0 : Fin 1))).toInt.toNat (N - 1), by omega⟩ q) := by
  unfold Host.gather
  congr 1
  funext a
  refine Fin.ext ?_
  show (rowsDims N C R wf).start (ix2 r q) idx a + (rowsDims N C R wf).batchCoord (ix2 r q) a
      + (rowsDims N C R wf).offCoord (ix2 r q) a = _
  rw [GatherDims.batchCoord_eq_zero _ _ _ List.not_mem_nil, Nat.add_zero]
  match a with
  | ⟨0, _⟩ =>
    show (rowsDims N C R wf).start (ix2 r q) idx (0 : Fin 2) + (rowsDims N C R wf).offCoord (ix2 r q) (0 : Fin 2)
      = min (idx (ix2 r (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hst : (rowsDims N C R wf).start (ix2 r q) idx (1 : Fin 2) = 0 := by
      unfold GatherDims.start
      rw [dif_neg (show (1 : Fin 2) ∉ ([0] : List (Fin 2)) by decide)]
    show (rowsDims N C R wf).start (ix2 r q) idx (1 : Fin 2) + (rowsDims N C R wf).offCoord (ix2 r q) (1 : Fin 2) = q.val
    rw [hst, Nat.zero_add]
    unfold GatherDims.offCoord
    rw [dif_pos ((GatherDims.mem_sKept _ _).mpr
      ⟨(show (1 : Fin 2) ∉ ([0] : List (Fin 2)) by decide), List.not_mem_nil⟩)]
    rfl

end Cert.Triplet

end
-- ==== Proof.RefValue.lean ====
/-
  The reference's result, element by element.

  The reference compares the three gathered integer arrays a, c, b (a with c, a with b, c with b), uses each comparison
  as a row index into a two-row table — widened to 32 bits, wrapped if negative, clamped into the table by the gather —
  and adds the three rows taken. Element (r, q) of its result is therefore `pickSum` of the r-th entries of a, b, c and of
  column q of the three tables.
-/
import proofs.«132046_j9345848836728_2_alg».proof.Proof.Gen.ReferenceIdeal.Read
import proofs.«132046_j9345848836728_2_alg».proof.Proof.Blend
import proofs.«132046_j9345848836728_2_alg».proof.Proof.TableRows
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Triplet

/-- The printed dimension numbers of the three table lookups are those of rows taken by an integer column. -/
theorem dims_eq : gather_S2x64_S2000000x1_S2000000x64_1_0_n_n_0_1_164
    = rowsDims 2 64 2000000 gather_S2x64_S2000000x1_S2000000x64_1_0_n_n_0_1_164_wf := rfl

/-- A comparison used as a row index into a two-row table picks the row by the comparison's bit: for an index column
    whose entry of row r is the comparison's bit widened, wrapped and left alone. -/
theorem table_pick (E : (⟨S2x64, .f32⟩ : BufTy).Contents (Elt Ideal)) (idx : (⟨S2000000x1, .i32⟩ : BufTy).Contents (Elt Ideal))
    (c : BitVec 1) (r : Fin 2000000) (q : Fin 64)
    (hidx : idx (ix2 r (0 : Fin 1))
      = Scalar.select (IntOp.cmpi .slt (c.setWidth 32) 0#32) (IntOp.addi (c.setWidth 32) 2#32) (c.setWidth 32)) :
    Host.gather gather_S2x64_S2000000x1_S2000000x64_1_0_n_n_0_1_164 E idx (ix2 r q)
      = pick c (E (ix2 (0 : Fin 2) q)) (E (ix2 (1 : Fin 2) q)) := by
  rw [dims_eq, gather_rows_apply (by decide)]
  have hrow := flag_row c
  rw [← hidx] at hrow
  unfold pick
  congr 1
  split
  · rename_i h1; rw [if_pos h1] at hrow
    exact congrArg E (funext fun a => Fin.ext (by
      match a with
      | ⟨0, _⟩ => exact hrow
      | ⟨1, _⟩ => rfl))
  · rename_i h1; rw [if_neg h1] at hrow
    exact congrArg E (funext fun a => Fin.ext (by
      match a with
      | ⟨0, _⟩ => exact hrow
      | ⟨1, _⟩ => rfl))

/-- THE COMMON VALUE: the result as ONE function of the eight argument arrays. Row r is decided by the r-th entries of the
    three gathered integer arrays (the stages the reference names %20, %34, %27: the source colour of the first edge,
    the colour of the shared node, the destination colour of the second edge). -/
def G (x0 : (⟨S50000, .i32⟩ : BufTy).Contents (Elt Ideal)) (x1 x2 : (⟨S1600000, .i32⟩ : BufTy).Contents (Elt Ideal))
    (x3 x4 : (⟨S2000000, .i32⟩ : BufTy).Contents (Elt Ideal)) (x5 x6 x7 : (⟨S2x64, .f32⟩ : BufTy).Contents (Elt Ideal)) :
    (⟨S2000000x64, .f32⟩ : BufTy).Contents (Elt Ideal) := fun i =>
  pickSum (val_main_v20 (F := Ideal) x0 x1 x3 (ix1 (i 0))) (val_main_v34 (F := Ideal) x0 x2 x3 (ix1 (i 0)))
    (val_main_v27 (F := Ideal) x0 x2 x4 (ix1 (i 0)))
    (x5 (ix2 (0 : Fin 2) (i 1))) (x5 (ix2 (1 : Fin 2) (i 1))) (x6 (ix2 (0 : Fin 2) (i 1))) (x6 (ix2 (1 : Fin 2) (i 1)))
    (x7 (ix2 (0 : Fin 2) (i 1))) (x7 (ix2 (1 : Fin 2) (i 1)))

/-- The reference's last stage is `G`. -/
theorem result_eq (x0 : (⟨S50000, .i32⟩ : BufTy).Contents (Elt Ideal)) (x1 x2 : (⟨S1600000, .i32⟩ : BufTy).Contents (Elt Ideal))
    (x3 x4 : (⟨S2000000, .i32⟩ : BufTy).Contents (Elt Ideal)) (x5 x6 x7 : (⟨S2x64, .f32⟩ : BufTy).Contents (Elt Ideal)) :
    val_main_v63 (F := Ideal) x0 x1 x2 x3 x4 x5 x6 x7 = G x0 x1 x2 x3 x4 x5 x6 x7 := by
  funext i
  obtain ⟨r, q, rfl⟩ : ∃ (r : Fin 2000000) (q : Fin 64), i = ix2 r q := ⟨i 0, i 1, eq_ix2 i⟩
  have e46 : idx_main_v46 (ix2 r (0 : Fin 1)) = ix1 r := funext fun a => by match a with | ⟨0, _⟩ => rfl
  have e53 : idx_main_v53 (ix2 r (0 : Fin 1)) = ix1 r := funext fun a => by match a with | ⟨0, _⟩ => rfl
  have e61 : idx_main_v61 (ix2 r (0 : Fin 1)) = ix1 r := funext fun a => by match a with | ⟨0, _⟩ => rfl
  rw [val_main_v63_apply, val_main_v55_apply]
  unfold val_main_v47 val_main_v54 val_main_v62
  rw [table_pick x5 _ (IntOp.cmpi .eq (val_main_v20 (F := Ideal) x0 x1 x3 (ix1 r)) (val_main_v27 (F := Ideal) x0 x2 x4 (ix1 r))) r q
      (by rw [val_main_v46_apply, e46]; rfl),
    table_pick x6 _ (IntOp.cmpi .eq (val_main_v20 (F := Ideal) x0 x1 x3 (ix1 r)) (val_main_v34 (F := Ideal) x0 x2 x3 (ix1 r))) r q
      (by rw [val_main_v53_apply, e53]; rfl),
    table_pick x7 _ (IntOp.cmpi .eq (val_main_v27 (F := Ideal) x0 x2 x4 (ix1 r)) (val_main_v34 (F := Ideal) x0 x2 x3 (ix1 r))) r q
      (by rw [val_main_v61_apply, e61]; rfl)]
  rfl

end Cert.ReferenceIdeal.RefValue

end
-- ==== Proof.KernelRun.lean ====
/-
  The kernel's run, read: what its result array holds.

  Before the launch the program gathers the three integer arrays a, b, c (length 2000000) and pads each at its end to
  2015232 = 123 · 16384 entries; after the launch it keeps the first 2000000 rows of the [2015232, 64] output. So row r
  of the result is row r of the padded output, which the launch computed from the r-th entries of the padded arrays —
  the r-th entries of a, b, c themselves, r being below the padding — and from the tables.
  The three gathered arrays are, operation for operation, the reference's stages %20, %34, %27 of the same arguments;
  they are named by those stages here so that both programs speak of the same integers.
-/
import proofs.«132046_j9345848836728_2_alg».proof.Proof.ArrayValue
import proofs.«132046_j9345848836728_2_alg».proof.Proof.PadRows
import proofs.«132046_j9345848836728_2_alg».proof.Proof.RefValue
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Triplet Idealize.ShloMosaic.StableHlo
open Idealize.ShloMosaic.Pipeline (Dat)

variable (m : (ℓ : Loc nD τ sig) → Buf (Elt Ideal) ℓ) (ρ : Dev nD → PrngReg)

set_option maxRecDepth 8192 in
set_option maxHeartbeats 32000000 in
/-- The first padded array is the gathered array a (the reference's stage %20 of the same arguments), padded. -/
theorem head_a (c : Dev nD) : (V m c main_v35 : S2015232.Idx → BitVec 32)
    = pad S2015232 ![0] ![15232] ![0]
        (Cert.ReferenceIdeal.Read.val_main_v20 (F := Ideal) (m ((c.tc : Thread nD τ).loc main_arg0))
          (m ((c.tc : Thread nD τ).loc main_arg1)) (m ((c.tc : Thread nD τ).loc main_arg3)))
        (constantI S_ 32 0#32) pads_S2000000_S2015232_0152320 h_S_ := by
  dsimp only [V, V0]
  simp only [hostOps0, hostOps0_1, hostOps0_2, hostOps0_3, hostOps0_4, hostOps0_5, List.flatten_cons, List.flatten_nil,
    List.append_nil, List.cons_append, List.nil_append]
  after_results_simp
  rfl

set_option maxRecDepth 8192 in
set_option maxHeartbeats 32000000 in
/-- The second padded array is the gathered array b (the reference's stage %34), padded. -/
theorem head_b (c : Dev nD) : (V m c main_v36 : S2015232.Idx → BitVec 32)
    = pad S2015232 ![0] ![15232] ![0]
        (Cert.ReferenceIdeal.Read.val_main_v34 (F := Ideal) (m ((c.tc : Thread nD τ).loc main_arg0))
          (m ((c.tc : Thread nD τ).loc main_arg2)) (m ((c.tc : Thread nD τ).loc main_arg3)))
        (constantI S_ 32 0#32) pads_S2000000_S2015232_0152320 h_S_ := by
  dsimp only [V, V0]
  simp only [hostOps0, hostOps0_1, hostOps0_2, hostOps0_3, hostOps0_4, hostOps0_5, List.flatten_cons, List.flatten_nil,
    List.append_nil, List.cons_append, List.nil_append]
  after_results_simp
  rfl

set_option maxRecDepth 8192 in
set_option maxHeartbeats 32000000 in
/-- The third padded array is the gathered array c (the reference's stage %27), padded. -/
theorem head_c (c : Dev nD) : (V m c main_v37 : S2015232.Idx → BitVec 32)
    = pad S2015232 ![0] ![15232] ![0]
        (Cert.ReferenceIdeal.Read.val_main_v27 (F := Ideal) (m ((c.tc : Thread nD τ).loc main_arg0))
          (m ((c.tc : Thread nD τ).loc main_arg2)) (m ((c.tc : Thread nD τ).loc main_arg4)))
        (constantI S_ 32 0#32) pads_S2000000_S2015232_0152320 h_S_ := by
  dsimp only [V, V0]
  simp only [hostOps0, hostOps0_1, hostOps0_2, hostOps0_3, hostOps0_4, hostOps0_5, List.flatten_cons, List.flatten_nil,
    List.append_nil, List.cons_append, List.nil_append]
  after_results_simp
  rfl

end Cert.KernelIdeal.Whole

end
-- ==== Proof.Finite.lean ====
/-
  What the precondition says: every entry of the three tables is a real number.

  The printed predicate is the conjunction of three `all(|E| < +inf)`; a reduction by `and` that comes out 1 met only
  1s, and |x| < +inf on the extended reals excludes both infinities.
-/
import proofs.«132046_j9345848836728_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

variable [Facts]

instance : Subsingleton S_.Idx := ⟨fun a b => funext fun d => d.elim0⟩

/-- The word the predicate compares against denotes +inf. -/
theorem inf_word : Ideal.ofBits .f32 0x7F800000#32 = (⊤ : EReal) := by
  simp [Ideal.ofBits, Ideal.ieee]

/-- An extended real whose absolute value is below +inf is a real number. -/
theorem real_of_abs_lt (x : EReal) (h : Ideal.cmp .olt (max x (-x)) (Ideal.ofBits .f32 0x7F800000#32) = 1#1) :
    x ≠ ⊤ ∧ x ≠ ⊥ := by
  rw [inf_word] at h
  have hlt : max x (-x) < ⊤ := by
    by_contra hn
    have h0 : Ideal.cmp .olt (max x (-x)) ⊤ = 0#1 := by simp [Ideal.cmp, hn]
    rw [h0] at h
    exact absurd h (by decide)
  constructor
  · rintro rfl; simp at hlt
  · rintro rfl; simp at hlt

/-- Every entry of a table is a real number. -/
def AllReal (e : FVec Ideal S2x64 .f32) : Prop := ∀ i, e i ≠ ⊤ ∧ e i ≠ ⊥

/-- THE PRECONDITION READ: all entries of the three tables are real numbers. -/
theorem entries_real (a0 : IVec S50000 32) (a1 a2 : IVec S1600000 32) (a3 a4 : IVec S2000000 32)
    (e1 e2 e3 : FVec Ideal S2x64 .f32)
    (h : fn (F := Ideal) a0 a1 a2 a3 a4 e1 e2 e3 = fun _ => 1#1) :
    AllReal e1 ∧ AllReal e2 ∧ AllReal e3 := by
  have h0 := congrFun h ValueIdx.ix0
  dsimp only [fn] at h0
  obtain ⟨h12, h3⟩ := IntOp.andi_eq_one.1 h0
  obtain ⟨h1, h2⟩ := IntOp.andi_eq_one.1 h12
  exact ⟨fun i => real_of_abs_lt (e1 i) (Host.reduce_andi_all _ _ _ _ _ h1 i),
    fun i => real_of_abs_lt (e2 i) (Host.reduce_andi_all _ _ _ _ _ h2 i),
    fun i => real_of_abs_lt (e3 i) (Host.reduce_andi_all _ _ _ _ _ h3 i)⟩

end Cert.Pre_finite_inputs.Finite

end
-- ==== Proof.KernelValue.lean ====
/-
  The kernel's result as the common function of the arguments.

  After the launch the program keeps rows 0 … 1999999 of the padded output. Row r of it was computed from the r-th
  entries of the padded integer arrays, which below the padding are the gathered arrays' own entries, and from the
  tables as launched; at real table entries the running sum of blends is the sum of picks, the reference's value.
-/
import proofs.«132046_j9345848836728_2_alg».proof.Proof.KernelRun
import proofs.«132046_j9345848836728_2_alg».proof.Proof.Finite

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Triplet Idealize.ShloMosaic.StableHlo
open Idealize.ShloMosaic.Pipeline (Dat)

variable (m : (ℓ : Loc nD τ sig) → Buf (Elt Ideal) ℓ) (ρ : Dev nD → PrngReg)

/-- The padded output of the launch, from the arrays the launch finds. -/
abbrev padded (c : Dev nD) : S2015232x64.Idx → EReal :=
  rowSums (V m c main_v35) (V m c main_v36) (V m c main_v37) (V m c main_arg5) (V m c main_arg6) (V m c main_arg7)

/-- What the line after the launch leaves in the result: the first 2000000 rows of the padded output. -/
theorem tail_eq (c : Dev nD) : Pipeline.afterTail₀ cfgs (dats m) 0 (V0 m) [hostOps1] c main_v39
    = extractStridedSlice S2000000x64 ![0, 0] (padded m c) slices_S2015232x64_S2000000x64_0_0 := by
  unfold Pipeline.afterTail₀
  show StableHlo.after hostOps1 _ (Proc.devRef .tc main_v39) = _
  after_results
  exact congrArg (fun X => extractStridedSlice S2000000x64 ![0, 0] X slices_S2015232x64_S2000000x64_0_0)
    ((Pipeline.withArrays_arr spec0 launch0.win.arr_inj c (V0 m c) (fun w => (dats m 0 c).arrAt w cfg0.N) 6).trans (final m c))

/-- THE RUN, READ: the result array at the first rows of the padded output, the arguments unchanged. -/
theorem run : θ_run defs (onTc (τ := τ) (main (F := Ideal))) ⟨m, fun _ => 0, ρ⟩ fun r => ∀ c : Dev nD,
      r.2.mem ((c.tc : Thread nD τ).loc main_v39)
        = extractStridedSlice S2000000x64 ![0, 0] (padded m c) slices_S2015232x64_S2000000x64_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩)
    (run_main m ρ)

/-- THE VALUE: at real table entries the kept rows are the common function `G` of the eight arguments. -/
theorem value_eq (c : Dev nD)
    (h5 : Cert.Pre_finite_inputs.Finite.AllReal (m ((c.tc : Thread nD τ).loc main_arg5)))
    (h6 : Cert.Pre_finite_inputs.Finite.AllReal (m ((c.tc : Thread nD τ).loc main_arg6)))
    (h7 : Cert.Pre_finite_inputs.Finite.AllReal (m ((c.tc : Thread nD τ).loc main_arg7))) :
    extractStridedSlice S2000000x64 ![0, 0] (padded m c) slices_S2015232x64_S2000000x64_0_0
      = Cert.ReferenceIdeal.RefValue.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  funext i
  obtain ⟨r, q, rfl⟩ : ∃ (r : Fin 2000000) (q : Fin 64), i = ix2 r q := ⟨i 0, i 1, eq_ix2 i⟩
  have hr : r.val < 2015232 := by have := r.isLt; omega
  rw [extractStridedSlice_apply _ _ _ (ix2 r q) (ix2 (⟨r.val, hr⟩ : Fin 2015232) q) (fun a => by
    match a with
    | ⟨0, _⟩ => show r.val = 0 + r.val; omega
    | ⟨1, _⟩ => show q.val = 0 + q.val; omega)]
  show blendSum (V m c main_v35 (ix1 ⟨r.val, hr⟩)) (V m c main_v36 (ix1 ⟨r.val, hr⟩)) (V m c main_v37 (ix1 ⟨r.val, hr⟩))
      (V m c main_arg5 (ix2 (0 : Fin 2) q)) (V m c main_arg5 (ix2 (1 : Fin 2) q))
      (V m c main_arg6 (ix2 (0 : Fin 2) q)) (V m c main_arg6 (ix2 (1 : Fin 2) q))
      (V m c main_arg7 (ix2 (0 : Fin 2) q)) (V m c main_arg7 (ix2 (1 : Fin 2) q)) = _
  rw [head_a, head_b, head_c, pad_end_apply _ _ _ _ r ⟨r.val, hr⟩ rfl, pad_end_apply _ _ _ _ r ⟨r.val, hr⟩ rfl,
    pad_end_apply _ _ _ _ r ⟨r.val, hr⟩ rfl, V_main_arg5, V_main_arg6, V_main_arg7]
  exact blendSum_eq_pickSum _ _ _ _ _ _ _ _ _ (h5 _) (h5 _) (h6 _) (h6 _) (h7 _) (h7 _)

end Cert.KernelIdeal.Whole

end
-- ==== Proof.lean ====
/-
  The certificate's five claims.

  THE MATHEMATICS. Both programs first gather three integer arrays of length 2000000 from the five integer arguments
  (a: the colour of the first edge's source, b: the colour of the shared node, c: the colour of the second edge's
  destination; the same gathers, operation for operation, in both). For every row r they compare a_r with c_r, a_r with
  b_r and c_r with b_r, and produce a row of 64 numbers from three two-row tables E₁, E₂, E₃:
    * the reference takes row (a_r = c_r) of E₁, row (a_r = b_r) of E₂, row (c_r = b_r) of E₃ and adds the three;
    * the kernel (on the arrays padded to 123 blocks of 16384 rows, its output cut back to 2000000 rows) forms
      E₁[0] + f · (E₁[1] − E₁[0]) with f the comparison as the number 0 or 1, likewise for E₂ and E₃, and adds the six
      terms in one running sum.
  On the extended reals x₀ + f · (x₁ − x₀) is the picked row x_f exactly when x₀ is a real number (an infinite x₀
  would be absorbed by the difference), which is what the precondition — every table entry finite — provides; the two
  groupings of the sum agree by associativity. So the two results are one function `G` of the arguments.
  The three frames are the generated ones (the reference's: its generated run with the result dropped); the ideal pass
  rewrote nothing, so `preserves` is trivial.
-/
import proofs.«132046_j9345848836728_2_alg».proof.Defs
import proofs.«132046_j9345848836728_2_alg».proof.Proof.Gen.Kernel
import proofs.«132046_j9345848836728_2_alg».proof.Proof.Gen.Kernel.Skeleton
import proofs.«132046_j9345848836728_2_alg».proof.Proof.Gen.Kernel.Launch
import proofs.«132046_j9345848836728_2_alg».proof.Proof.Gen.Kernel.Points
import proofs.«132046_j9345848836728_2_alg».proof.Proof.Gen.Kernel.Frame
import proofs.«132046_j9345848836728_2_alg».proof.Proof.Gen.KernelIdeal
import proofs.«132046_j9345848836728_2_alg».proof.Proof.Gen.KernelIdeal.Skeleton
import proofs.«132046_j9345848836728_2_alg».proof.Proof.Gen.KernelIdeal.Launch
import proofs.«132046_j9345848836728_2_alg».proof.Proof.Gen.KernelIdeal.Points
import proofs.«132046_j9345848836728_2_alg».proof.Proof.Gen.KernelIdeal.Frame
import proofs.«132046_j9345848836728_2_alg».proof.Proof.Gen.ReferenceIdeal
import proofs.«132046_j9345848836728_2_alg».proof.Proof.Gen.ReferenceIdeal.Run
import proofs.«132046_j9345848836728_2_alg».proof.Proof.Gen.ReferenceIdeal.Read
import proofs.«132046_j9345848836728_2_alg».proof.Proof.Gen.Pre_finite_inputs
import proofs.«132046_j9345848836728_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result at `G` of the arguments: the kernel's by its run read back and the
    law of blends and picks at finite table entries, the reference's by its run read stage by stage. -/
theorem algebraic : Cert.algebraic_KernelIdeal_ReferenceIdeal := by
  intro m ρ m' ρ' hpre hagree
  refine ⟨fun c => Cert.ReferenceIdeal.RefValue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.Whole.run m ρ)
    obtain ⟨h5, h6, h7⟩ := Cert.Pre_finite_inputs.Finite.entries_real _ _ _ _ _ _ _ _ (hpre c)
    exact Cert.KernelIdeal.Whole.value_eq m c h5 h6 h7
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq, Cert.ReferenceIdeal.RefValue.result_eq]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
